-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg7 : FVec F S128 .f32) (main_arg8 : FVec F S128x4 .f32) (main_arg9 : FVec F S4 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4 .f32 := Host.absf main_arg8
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S4 .f32 := Host.absf main_arg9
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x128 .f32) (main_arg1 : IVec S640000 32) (main_arg2 : IVec S640000 32) (main_arg3 : IVec S50000 32) (main_arg4 : FVec F S128x256 .f32) (main_arg5 : FVec F S256 .f32) (main_arg6 : FVec F S256x128 .f32) (main_arg7 : FVec F S128 .f32) (main_arg8 : FVec F S128x4 .f32) (main_arg9 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_v13 main_v16
-- ==== Kernel.lean ====
abbrev S50000x128 : Shape := ⟨2, ![50000, 128]⟩
abbrev S640000 : Shape := ⟨1, ![640000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x4 : Shape := ⟨2, ![64, 4]⟩
abbrev S1x4 : Shape := ⟨2, ![1, 4]⟩

abbrev nBuf : Space → Nat
  | .hbm => 124
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x4, .f32⟩
  | .hbm, ⟨9, _⟩ => ⟨S4, .f32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S_, .f32⟩
  | .hbm, ⟨21, _⟩ => ⟨S640000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S50000, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x1, .f32⟩
  | .hbm, ⟨57, _⟩ => ⟨S640000x128, .f32⟩
  | .hbm, ⟨58, _⟩ => ⟨S640000x128, .f32⟩
  | .hbm, ⟨59, _⟩ => ⟨S_, .f32⟩
  | .hbm, ⟨60, _⟩ => ⟨S50000x128, .f32⟩
  | .hbm, ⟨61, _⟩ => ⟨S640000x1, .i32⟩
  | .hbm, ⟨62, _⟩ => ⟨S50000x128, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S50000x128, .bf16⟩
  | .hbm, ⟨76, _⟩ => ⟨S_, .i32⟩
  | .hbm, ⟨77, _⟩ => ⟨S640000, .i32⟩
  | .hbm, ⟨78, _⟩ => ⟨S640000, .i1⟩
  | .hbm, ⟨79, _⟩ => ⟨S_, .i32⟩
  | .hbm, ⟨80, _⟩ => ⟨S640000, .i32⟩
  | .hbm, ⟨81, _⟩ => ⟨S640000, .i32⟩
  | .hbm, ⟨82, _⟩ => ⟨S640000, .i32⟩
  | .hbm, ⟨83, _⟩ => ⟨S640000x1, .i32⟩
  | .hbm, ⟨84, _⟩ => ⟨S640000x128, .bf16⟩
  | .hbm, ⟨85, _⟩ => ⟨S640000x128, .f32⟩
  | .hbm, ⟨86, _⟩ => ⟨S640000x1, .f32⟩
  | .hbm, ⟨87, _⟩ => ⟨S640000x128, .f32⟩
  | .hbm, ⟨88, _⟩ => ⟨S640000x128, .f32⟩
  | .hbm, ⟨89, _⟩ => ⟨S_, .f32⟩
  | .hbm, ⟨90, _⟩ => ⟨S50000x128, .f32⟩
  | .hbm, ⟨91, _⟩ => ⟨S640000x1, .i32⟩
  | .hbm, ⟨92, _⟩ => ⟨S50000x128, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S64x128, .f32⟩
  | .hbm, ⟨105, _⟩ => ⟨S50000x1, .i32⟩
  | .hbm, ⟨106, _⟩ => ⟨S64x128, .f32⟩
  | .hbm, ⟨107, _⟩ => ⟨S_, .f32⟩
  | .hbm, ⟨108, _⟩ => ⟨S50000, .f32⟩
  | .hbm, ⟨109, _⟩ => ⟨S_, .f32⟩
  | .hbm, ⟨110, _⟩ => ⟨S64, .f32⟩
  | .hbm, ⟨111, _⟩ => ⟨S50000x1, .i32⟩
  | .hbm, ⟨112, _⟩ => ⟨S64, .f32⟩
  | .hbm, ⟨113, _⟩ => ⟨S_, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S64x1, .f32⟩
  | .hbm, ⟨118, _⟩ => ⟨S64x128, .f32⟩
  | .hbm, ⟨119, _⟩ => ⟨S64x128, .f32⟩
  | .hbm, ⟨120, _⟩ => ⟨S64x4, .f32⟩
  | .hbm, ⟨121, _⟩ => ⟨S1x4, .f32⟩
  | .hbm, ⟨122, _⟩ => ⟨S64x4, .f32⟩
  | .hbm, ⟨123, _⟩ => ⟨S64x4, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call1_cst : Ref sig .tc := ⟨.hbm, 100, rfl⟩
abbrev main_call1_v0 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_call2_v0 : Ref sig .tc := ⟨.hbm, 114, rfl⟩
abbrev main_call2_v1 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S50000 : S_.BroadcastsInDim S50000 (![] : Fin 0 → Fin S50000.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x4_S64x4_1_0_0_1_n_n_wf : DotDims.WF S64x128 S128x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000 : Shape := ⟨1, ![640000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S50000x256 : Shape := ⟨2, ![50000, 256]⟩
abbrev S_ : Shape := ⟨0, ![]⟩
abbrev S640000x1 : Shape := ⟨2, ![640000, 1]⟩
abbrev S640000x256 : Shape := ⟨2, ![640000, 256]⟩
abbrev S50000x1 : Shape := ⟨2, ![50000, 1]⟩
abbrev S1x256 : Shape := ⟨2, ![1, 256]⟩
abbrev S640000x128 : Shape := ⟨2, ![640000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x4 : Shape := ⟨2, ![64, 4]⟩
abbrev S1x4 : Shape := ⟨2, ![1, 4]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S50000, .i32⟩
  | 4 => ⟨S128x256, .f32⟩
  | 5 => ⟨S256, .f32⟩
  | 6 => ⟨S256x128, .f32⟩
  | 7 => ⟨S128, .f32⟩
  | 8 => ⟨S128x4, .f32⟩
  | 9 => ⟨S4, .f32⟩
  | 10 => ⟨S50000x256, .f32⟩
  | 11 => ⟨S_, .f32⟩
  | 12 => ⟨S50000, .f32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S_, .f32⟩
  | 22 => ⟨S640000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000, .f32⟩
  | 46 => ⟨S640000, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x256, .f32⟩
  | 56 => ⟨S640000x1, .f32⟩
  | 57 => ⟨S640000x256, .f32⟩
  | 58 => ⟨S640000x256, .f32⟩
  | 59 => ⟨S_, .f32⟩
  | 60 => ⟨S50000x256, .f32⟩
  | 61 => ⟨S640000x1, .i32⟩
  | 62 => ⟨S50000x256, .f32⟩
  | 63 => ⟨S50000, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x128, .f32⟩
  | 75 => ⟨S_, .f32⟩
  | 76 => ⟨S50000, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S_, .f32⟩
  | 86 => ⟨S640000, .f32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000, .f32⟩
  | 110 => ⟨S640000, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S640000x1, .f32⟩
  | 121 => ⟨S640000x128, .f32⟩
  | 122 => ⟨S640000x128, .f32⟩
  | 123 => ⟨S_, .f32⟩
  | 124 => ⟨S50000x128, .f32⟩
  | 125 => ⟨S640000x1, .i32⟩
  | 126 => ⟨S50000x128, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S_, .f32⟩
  | 11 => ⟨S64x128, .f32⟩
  | 12 => ⟨S50000x1, .i32⟩
  | 13 => ⟨S64x128, .f32⟩
  | 14 => ⟨S_, .f32⟩
  | 15 => ⟨S50000, .f32⟩
  | 16 => ⟨S_, .f32⟩
  | 17 => ⟨S64, .f32⟩
  | 18 => ⟨S50000x1, .i32⟩
  | 19 => ⟨S64, .f32⟩
  | 20 => ⟨S_, .f32⟩
  | 21 => ⟨S_, .f32⟩
  | 22 => ⟨S64, .f32⟩
  | 23 => ⟨S64, .f32⟩
  | 24 => ⟨S64x1, .f32⟩
  | 25 => ⟨S64x128, .f32⟩
  | 26 => ⟨S64x128, .f32⟩
  | 27 => ⟨S64x4, .f32⟩
  | 28 => ⟨S1x4, .f32⟩
  | 29 => ⟨S64x4, .f32⟩
  | 30 => ⟨S64x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_call1_cst : Ref sig .tc := ⟨.hbm, 135, rfl⟩
abbrev main_call1_v0 : Ref sig .tc := ⟨.hbm, 136, rfl⟩
abbrev main_v99 : Ref sig .tc := ⟨.hbm, 137, rfl⟩
abbrev main_cst_22 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_cst_24 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_25 : Ref sig .tc := ⟨.hbm, 148, rfl⟩
abbrev main_call2_v0 : Ref sig .tc := ⟨.hbm, 149, rfl⟩
abbrev main_call2_v1 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x256_0_1 : S640000x1.BroadcastsInDim S640000x256 (![0, 1] : Fin 2 → Fin S640000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  dot_S50000x128_S128x256_S50000x256_1_0_0_1_n_n_wf : DotDims.WF S50000x128 S128x256 S50000x256 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x128_S50000x128_1_0_0_1_n_n_wf : DotDims.WF S50000x256 S256x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x4_S64x4_1_0_0_1_n_n_wf : DotDims.WF S64x128 S128x4 S64x4 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

class Facts : Prop extends Facts₀ where

variable [Facts]
-- ==== Proof.Spec.lean ====
/-
  The function both programs compute, cut at the one place where they differ.

  A two-layer graph convolution over N = 50000 nodes and E = 640000 edges (src → dst), pooled per graph and
  classified. With d(i) = 1 + #{e : dst e = i} the degree with the self loop, the symmetric normalisation gives edge e
  the weight ν(e) = d(src e)^(-1/2) · d(dst e)^(-1/2) and node i the self weight σ(i) = d(i)^(-1). One aggregation of a
  node-feature matrix h is  (A h)(i, ·) = ∑_{e : dst e = i} h(src e, ·) · ν(e) + h(i, ·) · σ(i).
  The reference computes layer 1 as A (x W₁); the kernel computes (A x) W₁. Everything after that value — bias,
  rectifier, second product, second aggregation, mean pooling, the classifier — is the same composition of the same
  operations in both programs: `afterSecondProduct` and `hidden` below. Only `aggregate128` / `aggregate256` are ever opened.
-/
import proofs.«109365_j63634235457560_2_alg».proof.Proof.Gen.ReferenceIdeal
import Idealize.ShloMosaic.PureOps.Ideal

noncomputable section

namespace Cert.Spec

open Idealize.ShloMosaic Cert.ReferenceIdeal Cert.ReferenceIdeal.Facts₀

/-- The scalar 0 and the scalar 1 as the programs spell them. -/
abbrev zero0 : FVec Ideal S_ .f32 := constant S_ .f32 0x00000000#32
abbrev one0 : FVec Ideal S_ .f32 := constant S_ .f32 0x3F800000#32

/-- An edge-endpoint array as a column of start indices, a negative entry counted from the end (jnp's indexing rule). -/
def wrapIdx (a : IVec S640000 32) : IVec S640000x1 32 :=
  broadcastInDim S640000x1 ![0] bcast_S640000_S640000x1_0
    (select (cmpi .slt a (broadcastInDim S640000 ![] bcast_S_S640000 (constantI S_ 32 0#32)))
      (addi a (broadcastInDim S640000 ![] bcast_S_S640000 (constantI S_ 32 50000#32))) a)

/-- An edge-endpoint array as a column of scatter indices, as it is (segment_sum drops what is out of range). -/
def colIdx (a : IVec S640000 32) : IVec S640000x1 32 :=
  broadcastInDim S640000x1 ![0] bcast_S640000_S640000x1_0 a

/-- d(i)^(-1/2): the in-degree counted by adding 1 per edge at its destination, plus the self loop. -/
def dinv (dst : IVec S640000 32) : FVec Ideal S50000 .f32 :=
  Host.rsqrt (addf
    (Host.scatterAdd scatter_S50000_S640000x1_S640000_n_0_0_1 (broadcastInDim S50000 ![] bcast_S_S50000 zero0) (wrapIdx dst)
      (broadcastInDim S640000 ![] bcast_S_S640000 one0))
    (broadcastInDim S50000 ![] bcast_S_S50000 one0))

/-- ν(e) = d(src e)^(-1/2) · d(dst e)^(-1/2). -/
def edgeNorm (src dst : IVec S640000 32) : FVec Ideal S640000 .f32 :=
  mulf (Host.gather gather_S50000_S640000x1_S640000_n_0_n_n_0_1_1 (dinv dst) (wrapIdx src))
    (Host.gather gather_S50000_S640000x1_S640000_n_0_n_n_0_1_1 (dinv dst) (wrapIdx dst))

/-- σ(i) = d(i)^(-1). -/
def selfNorm (dst : IVec S640000 32) : FVec Ideal S50000 .f32 := mulf (dinv dst) (dinv dst)

/-- One aggregation at width 128 with given edge and self weights: gather the source rows, scale, add at the destination rows, add the self term. -/
def aggregate128 (h : FVec Ideal S50000x128 .f32) (nu : FVec Ideal S640000 .f32) (sg : FVec Ideal S50000 .f32)
    (src dst : IVec S640000 32) : FVec Ideal S50000x128 .f32 :=
  addf
    (Host.scatterAdd scatter_S50000x128_S640000x1_S640000x128_1_0_0_1 (broadcastInDim S50000x128 ![] bcast_S_S50000x128 zero0) (colIdx dst)
      (mulf (Host.gather gather_S50000x128_S640000x1_S640000x128_1_0_n_n_0_1_1128 h (wrapIdx src))
        (broadcastInDim S640000x128 ![0, 1] bcast_S640000x1_S640000x128_0_1 (broadcastInDim S640000x1 ![0] bcast_S640000_S640000x1_0 nu))))
    (mulf h (broadcastInDim S50000x128 ![0, 1] bcast_S50000x1_S50000x128_0_1 (broadcastInDim S50000x1 ![0] bcast_S50000_S50000x1_0 sg)))

/-- The same aggregation at width 256. -/
def aggregate256 (h : FVec Ideal S50000x256 .f32) (nu : FVec Ideal S640000 .f32) (sg : FVec Ideal S50000 .f32)
    (src dst : IVec S640000 32) : FVec Ideal S50000x256 .f32 :=
  addf
    (Host.scatterAdd scatter_S50000x256_S640000x1_S640000x256_1_0_0_1 (broadcastInDim S50000x256 ![] bcast_S_S50000x256 zero0) (colIdx dst)
      (mulf (Host.gather gather_S50000x256_S640000x1_S640000x256_1_0_n_n_0_1_1256 h (wrapIdx src))
        (broadcastInDim S640000x256 ![0, 1] bcast_S640000x1_S640000x256_0_1 (broadcastInDim S640000x1 ![0] bcast_S640000_S640000x1_0 nu))))
    (mulf h (broadcastInDim S50000x256 ![0, 1] bcast_S50000x1_S50000x256_0_1 (broadcastInDim S50000x1 ![0] bcast_S50000_S50000x1_0 sg)))

/-- The two matrix products as the host spells them. -/
def product1 (a : FVec Ideal S50000x128 .f32) (w : FVec Ideal S128x256 .f32) : FVec Ideal S50000x256 .f32 :=
  Host.dotGeneral dot_S50000x128_S128x256_S50000x256_1_0_0_1_n_n none a w
def product2 (a : FVec Ideal S50000x256 .f32) (w : FVec Ideal S256x128 .f32) : FVec Ideal S50000x128 .f32 :=
  Host.dotGeneral dot_S50000x256_S256x128_S50000x128_1_0_0_1_n_n none a w

/-- Layer 1 after its linear part: add the bias row, rectify. -/
def hidden (pre : FVec Ideal S50000x256 .f32) (b1 : FVec Ideal S256 .f32) : FVec Ideal S50000x256 .f32 :=
  maximumf (addf pre (broadcastInDim S50000x256 ![0, 1] bcast_S1x256_S50000x256_0_1 (broadcastInDim S1x256 ![1] bcast_S256_S1x256_1 b1)))
    (broadcastInDim S50000x256 ![] bcast_S_S50000x256 zero0)

/-- Everything after the second product h₂: aggregate, bias, rectify, mean-pool per graph (sum over the graph's nodes
    divided by the node count, at least 1), classify. -/
def afterSecondProduct (h2 : FVec Ideal S50000x128 .f32) (nu : FVec Ideal S640000 .f32) (sg : FVec Ideal S50000 .f32)
    (src dst : IVec S640000 32) (batch : IVec S50000 32) (b2 : FVec Ideal S128 .f32) (wfc : FVec Ideal S128x4 .f32)
    (bfc : FVec Ideal S4 .f32) : FVec Ideal S64x4 .f32 :=
  addf
    (Host.dotGeneral dot_S64x128_S128x4_S64x4_1_0_0_1_n_n none
      (Host.divf
        (Host.scatterAdd scatter_S64x128_S50000x1_S50000x128_1_0_0_1 (broadcastInDim S64x128 ![] bcast_S_S64x128 zero0)
          (broadcastInDim S50000x1 ![0] bcast_S50000_S50000x1_0 batch)
          (maximumf
            (addf (aggregate128 h2 nu sg src dst)
              (broadcastInDim S50000x128 ![0, 1] bcast_S1x128_S50000x128_0_1 (broadcastInDim S1x128 ![1] bcast_S128_S1x128_1 b2)))
            (broadcastInDim S50000x128 ![] bcast_S_S50000x128 zero0)))
        (broadcastInDim S64x128 ![0, 1] bcast_S64x1_S64x128_0_1 (broadcastInDim S64x1 ![0] bcast_S64_S64x1_0
          (maximumf (broadcastInDim S64 ![] bcast_S_S64 (id one0))
            (Host.scatterAdd scatter_S64_S50000x1_S50000_n_0_0_1 (broadcastInDim S64 ![] bcast_S_S64 zero0)
              (broadcastInDim S50000x1 ![0] bcast_S50000_S50000x1_0 batch) (broadcastInDim S50000 ![] bcast_S_S50000 one0))))))
      wfc)
    (broadcastInDim S64x4 ![0, 1] bcast_S1x4_S64x4_0_1 (broadcastInDim S1x4 ![1] bcast_S4_S1x4_1 bfc))

/-- The whole network from the value of layer 1's linear part. -/
def network (pre : FVec Ideal S50000x256 .f32) (src dst : IVec S640000 32) (batch : IVec S50000 32)
    (b1 : FVec Ideal S256 .f32) (w2 : FVec Ideal S256x128 .f32) (b2 : FVec Ideal S128 .f32) (wfc : FVec Ideal S128x4 .f32)
    (bfc : FVec Ideal S4 .f32) : FVec Ideal S64x4 .f32 :=
  afterSecondProduct (product2 (hidden pre b1) w2) (edgeNorm src dst) (selfNorm dst) src dst batch b2 wfc bfc

end Cert.Spec

end
-- ==== Proof.RefValue.lean ====
/-
  The reference's result is the network of the layer-1 value "product first, then aggregate": its run's term, one
  operation after another, is the composition the specification names (the two degree normalisations the reference
  computes, one per layer, are the same term of the destination array).
-/
import proofs.«109365_j63634235457560_2_alg».proof.Proof.Gen.ReferenceIdeal.Run
import proofs.«109365_j63634235457560_2_alg».proof.Proof.Spec

noncomputable section

namespace Cert.ReferenceIdeal.RefValue

open Idealize.ShloMosaic Idealize.ShloMosaic.TcCoe Idealize.SL.Sem
open Cert.ReferenceIdeal Cert.ReferenceIdeal.Gen

/-- The reference's layer-1 linear part: aggregate the product x · W₁. -/
def pre (x : FVec Ideal S50000x128 .f32) (src dst : IVec S640000 32) (w1 : FVec Ideal S128x256 .f32) : FVec Ideal S50000x256 .f32 :=
  Cert.Spec.aggregate256 (Cert.Spec.product1 x w1) (Cert.Spec.edgeNorm src dst) (Cert.Spec.selfNorm dst) src dst

set_option maxRecDepth 16384 in
set_option maxHeartbeats 4000000 in
theorem result_eq (m : (ℓ : Loc nD τ sig) → Buf (Elt Ideal) ℓ) (c : Dev nD) :
    Cert.ReferenceIdeal.Value.res_main_v114 (F := Ideal) m c
      = Cert.Spec.network (pre (m ((c.tc : Thread nD τ).loc main_arg0)) (m ((c.tc : Thread nD τ).loc main_arg1)) (m ((c.tc : Thread nD τ).loc main_arg2)) (m ((c.tc : Thread nD τ).loc main_arg4)))
          (m ((c.tc : Thread nD τ).loc main_arg1)) (m ((c.tc : Thread nD τ).loc main_arg2)) (m ((c.tc : Thread nD τ).loc main_arg3))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v114
  rfl

end Cert.ReferenceIdeal.RefValue

end
-- ==== Proof.KernelRun.lean ====
/-
  The kernel program's run with its result named: every weakly fair execution of the idealized kernel program terminates,
  nothing faulting, with the result array holding what the last stretch of host operations leaves in it — the fold of the
  program's stretches and its two pipelined regions over the launch memory — and the argument arrays as launched.
  The segments, their thread states and the launch are those of the frame; only the final read adds the result buffer.
-/
import proofs.«109365_j63634235457560_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.KernelRegion.lean ====
/-
  What each of the two pipelined matrix-product kernels leaves in its output array.

  The kernel walks the rows of its left operand in ten blocks of 5000 rows; at block t it loads rows 5000 t … 5000 t + 4999
  and the whole right operand, forms their product into a zero accumulator (rounding the operands to a shorter format on
  the way, which is the identity on the extended reals), and writes the 5000-row result back as block t of the output.
  A row of a matrix product depends only on the same row of the left operand, so block t of the output is block t of
  the product of the whole arrays; the ten blocks tile the output, hence the output array ends as the whole product.
-/
import proofs.«109365_j63634235457560_2_alg».proof.Proof.Gen.KernelIdeal.Frame
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.RegionValue

open Idealize.ShloMosaic Idealize.ShloMosaic.TcCoe Idealize.SL.Sem Idealize.ShloMosaic.ValueIdx
open Cert.KernelIdeal Cert.KernelIdeal.Gen

theorem hz : (![0, 0] : Fin 2 → Nat) = fun _ => 0 := funext fun a => by fin_cases a <;> rfl

/-- A product into the zero accumulator is the host's product: both are the plain sum over the contracted index. -/
theorem matmul_zero_eq_dot {sl sr so : Shape} (d : DotDims sl sr so) (l : FVec Ideal sl .bf16) (r : FVec Ideal sr .bf16) :
    matmul d none l r (constant so .f32 0x00000000#32) = Host.dotGeneral d none l r :=
  funext fun j => (Ideal.matmul_constant_zero_apply d none l r j).trans (Ideal.dotGeneral_apply d none .single l r j).symm

/-- The plain m×k by k×n product as a function of two arrays, typed as buffer contents. -/
abbrev prod (m k n : Nat) (a : (⟨2, ![m, k]⟩ : Shape).Idx → Elt Ideal .f32) (w : (⟨2, ![k, n]⟩ : Shape).Idx → Elt Ideal .f32) :
    (⟨2, ![m, n]⟩ : Shape).Idx → Elt Ideal .f32 :=
  Host.dotGeneral (F := Ideal) (φ₁ := .f32) (φ₂ := .f32) (DotDims.plain m k n) none a w

theorem prod_apply (m k n : Nat) (a : (⟨2, ![m, k]⟩ : Shape).Idx → Elt Ideal .f32) (w : (⟨2, ![k, n]⟩ : Shape).Idx → Elt Ideal .f32)
    (p : Fin m) (q : Fin n) : prod m k n a w (ix2 p q) = ∑ c : Fin k, a (ix2 p c) * w (ix2 c q) :=
  StackMember.dotGeneral_plain_apply none a w p q

/-! ## Region 0: [50000,128] × [128,256] -/

theorem pay0_eq (x0 : Vec Ideal S5000x128 .f32) (x1 : Vec Ideal S128x256 .f32) :
    k0_pay1 (F := Ideal) x0 x1 = prod 5000 128 256 x0 x1 := by
  unfold k0_pay1
  refine (matmul_zero_eq_dot dot_S5000x128_S128x256_S5000x256_1_0_0_1_n_n _ _).trans ?_
  show Host.dotGeneral (F := Ideal) (φ₁ := .f32) (φ₂ := .f32) (DotDims.plain 5000 128 256) none (shapeCast S5000x128 x0 shapeCasts_S5000x128_S5000x128) x1 = _
  rw [shapeCast_self]

/-- Where each window's block sits at point t, decided over the ten points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem flushed0_eq (c : Dev nD) (t : Fin cfg0.N) :
    (dat0 (F := Ideal) V c).flushed 2 t = ((cfg0.win 2).blk t).view.read (Elt Ideal)
      (prod 50000 128 256 (V c main_v44) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  rw [pay0_eq]
  funext j
  show prod 5000 128 256 (iblk0 V c 0 t) (iblk0 V c 1 t) j
    = prod 50000 128 256 (V c main_v44) (V c main_arg4) (((cfg0.win 2).blk t).view.emb j)
  obtain ⟨p, q, rfl⟩ : ∃ (p : Fin 5000) (q : Fin 256), j = ix2 p q := ⟨j 0, j 1, eq_ix2 j⟩
  have ht : t.val < 10 := lt_of_lt_of_eq t.isLt N_0
  obtain ⟨e0, e1, e2, e3, e4, e5⟩ := idx_facts0 t
  have hout : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 256 + 1 * q.val = q.val; omega
  rw [hout, prod_apply, prod_apply]
  refine Finset.sum_congr rfl fun k _ => ?_
  have hl : ((cfg0.win 0).blk t).view.emb (ix2 p k) = ix2 (⟨t.val * 5000 + p.val, by omega⟩ : Fin 50000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hr : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  have h1 : iblk0 V c 0 t (ix2 p k) = (V c main_v44 : S50000x128.Idx → Elt Ideal .f32) (ix2 (⟨t.val * 5000 + p.val, by omega⟩ : Fin 50000) k) :=
    congrArg (V c main_v44 : S50000x128.Idx → Elt Ideal .f32) hl
  have h2 : iblk0 V c 1 t (ix2 k q) = (V c main_arg4 : S128x256.Idx → Elt Ideal .f32) (ix2 k q) :=
    congrArg (V c main_arg4 : S128x256.Idx → Elt Ideal .f32) hr
  rw [h1, h2]

/-- An index of the output array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v45).slice (win0_2.rect t)).set ↔ _
  rw [View.set_slice_whole, Rect.mem_set_unit]
  exact Iff.rfl

/-- Row r of the output lies in the block of point r / 5000: the ten blocks tile the array. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- REGION 0's OUTPUT ARRAY after the region: the product of its two input arrays as the region finds them. -/
theorem final0 (c : Dev nD) :
    (dat0 (F := Ideal) V c).arrAt 2 cfg0.N = prod 50000 128 256 (V c main_v44) (V c main_arg4) :=
  (dat0 (F := Ideal) V c).arrAt_eq_of_cover 2 (prod 50000 128 256 (V c main_v44) (V c main_arg4))
    (fun t _ => flushed0_eq V c t) cover0

/-! ## Region 1: [50000,256] × [256,128] -/

theorem pay1_eq (x0 : Vec Ideal S5000x256 .f32) (x1 : Vec Ideal S256x128 .f32) :
    k1_pay1 (F := Ideal) x0 x1 = prod 5000 256 128 x0 x1 := by
  unfold k1_pay1
  refine (matmul_zero_eq_dot dot_S5000x256_S256x128_S5000x128_1_0_0_1_n_n _ _).trans ?_
  show Host.dotGeneral (F := Ideal) (φ₁ := .f32) (φ₂ := .f32) (DotDims.plain 5000 256 128) none (shapeCast S5000x256 x0 shapeCasts_S5000x256_S5000x256) x1 = _
  rw [shapeCast_self]

/-- Where each window's block sits at point t, decided over the ten points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_eq (c : Dev nD) (t : Fin cfg1.N) :
    (dat1 (F := Ideal) V c).flushed 2 t = ((cfg1.win 2).blk t).view.read (Elt Ideal)
      (prod 50000 256 128 (V c main_v49) (V c main_arg6)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  rw [pay1_eq]
  funext j
  show prod 5000 256 128 (iblk1 V c 0 t) (iblk1 V c 1 t) j
    = prod 50000 256 128 (V c main_v49) (V c main_arg6) (((cfg1.win 2).blk t).view.emb j)
  obtain ⟨p, q, rfl⟩ : ∃ (p : Fin 5000) (q : Fin 128), j = ix2 p q := ⟨j 0, j 1, eq_ix2 j⟩
  have ht : t.val < 10 := lt_of_lt_of_eq t.isLt N_1
  obtain ⟨e0, e1, e2, e3, e4, e5⟩ := idx_facts1 t
  have hout : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hout, prod_apply, prod_apply]
  refine Finset.sum_congr rfl fun k _ => ?_
  have hl : ((cfg1.win 0).blk t).view.emb (ix2 p k) = ix2 (⟨t.val * 5000 + p.val, by omega⟩ : Fin 50000) k := by
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have hr : ((cfg1.win 1).blk t).view.emb (ix2 k q) = ix2 k q := by
    funext a; apply Fin.ext
    match a with
    | ⟨0, _⟩ => show win1_1.index t (0 : Fin 2) * 256 + 1 * k.val = k.val; omega
    | ⟨1, _⟩ => show win1_1.index t (1 : Fin 2) * 128 + 1 * q.val = q.val; omega
  have h1 : iblk1 V c 0 t (ix2 p k) = (V c main_v49 : S50000x256.Idx → Elt Ideal .f32) (ix2 (⟨t.val * 5000 + p.val, by omega⟩ : Fin 50000) k) :=
    congrArg (V c main_v49 : S50000x256.Idx → Elt Ideal .f32) hl
  have h2 : iblk1 V c 1 t (ix2 k q) = (V c main_arg6 : S256x128.Idx → Elt Ideal .f32) (ix2 k q) :=
    congrArg (V c main_arg6 : S256x128.Idx → Elt Ideal .f32) hr
  rw [h1, h2]

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row r of the output lies in the block of point r / 5000: the ten blocks tile the array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- REGION 1's OUTPUT ARRAY after the region: the product of its two input arrays as the region finds them. -/
theorem final1 (c : Dev nD) :
    (dat1 (F := Ideal) V c).arrAt 2 cfg1.N = prod 50000 256 128 (V c main_v49) (V c main_arg6) :=
  (dat1 (F := Ideal) V c).arrAt_eq_of_cover 2 (prod 50000 256 128 (V c main_v49) (V c main_arg6))
    (fun t _ => flushed1_eq V c t) cover1

end Cert.KernelIdeal.RegionValue

end
-- ==== Proof.KernelValueA.lean ====
/-
  The kernel program's first stretch of host operations and its first pipelined product, read back: what the first
  region is entered with (the aggregated raw features; W₁), what it leaves (their product), and what the buffers it
  passes through hold (the arguments; the edge and self weights).
-/
import proofs.«109365_j63634235457560_2_alg».proof.Proof.Gen.KernelIdeal.Frame
import proofs.«109365_j63634235457560_2_alg».proof.Proof.KernelRegion
import proofs.«109365_j63634235457560_2_alg».proof.Proof.Spec
import Idealize.ShloMosaic.Lib.StableHlo.Run

set_option maxRecDepth 16384

noncomputable section

namespace Cert.KernelIdeal.FoldValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- One pass that reads a buffer after a stretch of host operations: each operation's result at its own buffer is its
    function of its operands' contents, and any other buffer keeps what it held. -/
macro "read_stretch" : tactic =>
  `(tactic| (simp (disch := decide) only [hostOps0, hostOps1, hostOps1_1, hostOps2, hostOps2_1, hostOps2_2, hostOps2_3, hostOps2_4,
      fn_relu.body, fn_relu_0.body, fn_clip.body,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))
/-! ## What the first region is entered with -/

set_option maxHeartbeats 4000000 in
/-- The first region's left operand: the aggregated raw features. -/
theorem entry0_v44 (c : Dev nD) :
    V1 m ρ c main_v44 = Cert.Spec.aggregate128 (m ((c : Thread nD τ).loc main_arg0)) (Cert.Spec.edgeNorm (m ((c : Thread nD τ).loc main_arg1)) (m ((c : Thread nD τ).loc main_arg2))) (Cert.Spec.selfNorm (m ((c : Thread nD τ).loc main_arg2))) (m ((c : Thread nD τ).loc main_arg1)) (m ((c : Thread nD τ).loc main_arg2)) := by
  show StableHlo.after hostOps0 (W0 m ρ c) (Proc.devRef .tc main_v44) = _
  read_stretch
  rfl

/-- The first region's right operand: W₁ as launched. -/
theorem entry0_arg4 (c : Dev nD) : V1 m ρ c main_arg4 = (m ((c : Thread nD τ).loc main_arg4)) := by
  show StableHlo.after hostOps0 (W0 m ρ c) (Proc.devRef .tc main_arg4) = _
  read_stretch <;> rfl

/-- After the first region its output array holds the product. -/
theorem region0_eq (c : Dev nD) :
    W2 m ρ c (Proc.devRef .tc main_v45) = RegionValue.prod 50000 128 256 (V1 m ρ c main_v44) (V1 m ρ c main_arg4) :=
  (W2_arr m ρ c 2).trans (RegionValue.final0 (V1 m ρ) c)

/-! ## Buffers the first region passes through: as the first stretch left them -/

theorem W2_arg1 (c : Dev nD) : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  read_stretch <;> rfl

theorem W2_arg2 (c : Dev nD) : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  read_stretch <;> rfl

theorem W2_arg3 (c : Dev nD) : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  read_stretch <;> rfl

theorem W2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  read_stretch <;> rfl

theorem W2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  read_stretch <;> rfl

theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  read_stretch <;> rfl

theorem W2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  read_stretch <;> rfl

theorem W2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  read_stretch <;> rfl

set_option maxHeartbeats 4000000 in
theorem W2_v26 (c : Dev nD) : W2 m ρ c (Proc.devRef .tc main_v26) = (Cert.Spec.edgeNorm (m ((c : Thread nD τ).loc main_arg1)) (m ((c : Thread nD τ).loc main_arg2))) := by
  rw [W2_of_ne m ρ c main_v26 (by decide)]
  show StableHlo.after hostOps0 (W0 m ρ c) (Proc.devRef .tc main_v26) = _
  read_stretch <;> rfl

set_option maxHeartbeats 4000000 in
theorem W2_v27 (c : Dev nD) : W2 m ρ c (Proc.devRef .tc main_v27) = (Cert.Spec.selfNorm (m ((c : Thread nD τ).loc main_arg2))) := by
  rw [W2_of_ne m ρ c main_v27 (by decide)]
  show StableHlo.after hostOps0 (W0 m ρ c) (Proc.devRef .tc main_v27) = _
  read_stretch <;> rfl

end Cert.KernelIdeal.FoldValue

end
-- ==== Proof.KernelValueB.lean ====
/-
  Between the two pipelined products: the host adds the bias row and rectifies; the second region multiplies by W₂;
  every buffer neither writes keeps what the first region left.
-/
import proofs.«109365_j63634235457560_2_alg».proof.Proof.Gen.KernelIdeal.Frame
import proofs.«109365_j63634235457560_2_alg».proof.Proof.KernelRegion
import proofs.«109365_j63634235457560_2_alg».proof.Proof.KernelValueA
import proofs.«109365_j63634235457560_2_alg».proof.Proof.Spec
import Idealize.ShloMosaic.Lib.StableHlo.Run

set_option maxRecDepth 16384

noncomputable section

namespace Cert.KernelIdeal.FoldValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What the second region is entered with -/

/-- The second region's left operand: bias added, rectified. -/
theorem entry1_v49 (c : Dev nD) :
    V4 m ρ c main_v49 = Cert.Spec.hidden (W2 m ρ c (Proc.devRef .tc main_v45)) (m ((c : Thread nD τ).loc main_arg5)) := by
  show StableHlo.after hostOps1_1 (StableHlo.after hostOps1 (W2 m ρ c)) (Proc.devRef .tc main_v49) = _
  read_stretch
  rw [W2_arg5 m ρ c]
  rfl

/-- The second region's right operand: W₂ as launched. -/
theorem entry1_arg6 (c : Dev nD) : V4 m ρ c main_arg6 = (m ((c : Thread nD τ).loc main_arg6)) := by
  show StableHlo.after hostOps1_1 (StableHlo.after hostOps1 (W2 m ρ c)) (Proc.devRef .tc main_arg6) = _
  read_stretch
  exact W2_arg6 m ρ c

/-- After the second region its output array holds the product. -/
theorem region1_eq (c : Dev nD) :
    W5 m ρ c (Proc.devRef .tc main_v50) = RegionValue.prod 50000 256 128 (V4 m ρ c main_v49) (V4 m ρ c main_arg6) :=
  (W5_arr m ρ c 2).trans (RegionValue.final1 (V4 m ρ) c)

/-! ## Buffers the second region and the stretch before it pass through -/

theorem W5_arg1 (c : Dev nD) : W5 m ρ c (Proc.devRef .tc main_arg1) = W2 m ρ c (Proc.devRef .tc main_arg1) := by
  rw [W5_of_ne m ρ c main_arg1 (by decide)]
  show StableHlo.after hostOps1_1 (StableHlo.after hostOps1 (W2 m ρ c)) (Proc.devRef .tc main_arg1) = _
  read_stretch

theorem W5_arg2 (c : Dev nD) : W5 m ρ c (Proc.devRef .tc main_arg2) = W2 m ρ c (Proc.devRef .tc main_arg2) := by
  rw [W5_of_ne m ρ c main_arg2 (by decide)]
  show StableHlo.after hostOps1_1 (StableHlo.after hostOps1 (W2 m ρ c)) (Proc.devRef .tc main_arg2) = _
  read_stretch

theorem W5_arg3 (c : Dev nD) : W5 m ρ c (Proc.devRef .tc main_arg3) = W2 m ρ c (Proc.devRef .tc main_arg3) := by
  rw [W5_of_ne m ρ c main_arg3 (by decide)]
  show StableHlo.after hostOps1_1 (StableHlo.after hostOps1 (W2 m ρ c)) (Proc.devRef .tc main_arg3) = _
  read_stretch

theorem W5_arg7 (c : Dev nD) : W5 m ρ c (Proc.devRef .tc main_arg7) = W2 m ρ c (Proc.devRef .tc main_arg7) := by
  rw [W5_of_ne m ρ c main_arg7 (by decide)]
  show StableHlo.after hostOps1_1 (StableHlo.after hostOps1 (W2 m ρ c)) (Proc.devRef .tc main_arg7) = _
  read_stretch

theorem W5_arg8 (c : Dev nD) : W5 m ρ c (Proc.devRef .tc main_arg8) = W2 m ρ c (Proc.devRef .tc main_arg8) := by
  rw [W5_of_ne m ρ c main_arg8 (by decide)]
  show StableHlo.after hostOps1_1 (StableHlo.after hostOps1 (W2 m ρ c)) (Proc.devRef .tc main_arg8) = _
  read_stretch

theorem W5_arg9 (c : Dev nD) : W5 m ρ c (Proc.devRef .tc main_arg9) = W2 m ρ c (Proc.devRef .tc main_arg9) := by
  rw [W5_of_ne m ρ c main_arg9 (by decide)]
  show StableHlo.after hostOps1_1 (StableHlo.after hostOps1 (W2 m ρ c)) (Proc.devRef .tc main_arg9) = _
  read_stretch

theorem W5_v26 (c : Dev nD) : W5 m ρ c (Proc.devRef .tc main_v26) = W2 m ρ c (Proc.devRef .tc main_v26) := by
  rw [W5_of_ne m ρ c main_v26 (by decide)]
  show StableHlo.after hostOps1_1 (StableHlo.after hostOps1 (W2 m ρ c)) (Proc.devRef .tc main_v26) = _
  read_stretch

theorem W5_v27 (c : Dev nD) : W5 m ρ c (Proc.devRef .tc main_v27) = W2 m ρ c (Proc.devRef .tc main_v27) := by
  rw [W5_of_ne m ρ c main_v27 (by decide)]
  show StableHlo.after hostOps1_1 (StableHlo.after hostOps1 (W2 m ρ c)) (Proc.devRef .tc main_v27) = _
  read_stretch

end Cert.KernelIdeal.FoldValue

end
-- ==== Proof.SpecK.lean ====
/-
  The tail of the network — everything after the second product — spelt over the kernel program's own vocabulary of
  shapes and dimension numbers, and that it is the specification's tail: the two programs print the same records.
-/
import proofs.«109365_j63634235457560_2_alg».proof.Proof.Gen.KernelIdeal
import proofs.«109365_j63634235457560_2_alg».proof.Proof.Spec

noncomputable section

namespace Cert.SpecK

open Idealize.ShloMosaic Cert.KernelIdeal Cert.KernelIdeal.Facts₀

/-- The scalar 0 and the scalar 1 as the programs spell them. -/
abbrev zero0 : FVec Ideal S_ .f32 := constant S_ .f32 0x00000000#32
abbrev one0 : FVec Ideal S_ .f32 := constant S_ .f32 0x3F800000#32

/-- An edge-endpoint array as a column of start indices, a negative entry counted from the end (jnp's indexing rule). -/
def wrapIdx (a : IVec S640000 32) : IVec S640000x1 32 :=
  broadcastInDim S640000x1 ![0] bcast_S640000_S640000x1_0
    (select (cmpi .slt a (broadcastInDim S640000 ![] bcast_S_S640000 (constantI S_ 32 0#32)))
      (addi a (broadcastInDim S640000 ![] bcast_S_S640000 (constantI S_ 32 50000#32))) a)

/-- An edge-endpoint array as a column of scatter indices, as it is (segment_sum drops what is out of range). -/
def colIdx (a : IVec S640000 32) : IVec S640000x1 32 :=
  broadcastInDim S640000x1 ![0] bcast_S640000_S640000x1_0 a

/-- One aggregation at width 128 with given edge and self weights: gather the source rows, scale, add at the destination rows, add the self term. -/
def aggregate128 (h : FVec Ideal S50000x128 .f32) (nu : FVec Ideal S640000 .f32) (sg : FVec Ideal S50000 .f32)
    (src dst : IVec S640000 32) : FVec Ideal S50000x128 .f32 :=
  addf
    (Host.scatterAdd scatter_S50000x128_S640000x1_S640000x128_1_0_0_1 (broadcastInDim S50000x128 ![] bcast_S_S50000x128 zero0) (colIdx dst)
      (mulf (Host.gather gather_S50000x128_S640000x1_S640000x128_1_0_n_n_0_1_1128 h (wrapIdx src))
        (broadcastInDim S640000x128 ![0, 1] bcast_S640000x1_S640000x128_0_1 (broadcastInDim S640000x1 ![0] bcast_S640000_S640000x1_0 nu))))
    (mulf h (broadcastInDim S50000x128 ![0, 1] bcast_S50000x1_S50000x128_0_1 (broadcastInDim S50000x1 ![0] bcast_S50000_S50000x1_0 sg)))

/-- Everything after the second product h₂: aggregate, bias, rectify, mean-pool per graph (sum over the graph's nodes
    divided by the node count, at least 1), classify. -/
def afterSecondProduct (h2 : FVec Ideal S50000x128 .f32) (nu : FVec Ideal S640000 .f32) (sg : FVec Ideal S50000 .f32)
    (src dst : IVec S640000 32) (batch : IVec S50000 32) (b2 : FVec Ideal S128 .f32) (wfc : FVec Ideal S128x4 .f32)
    (bfc : FVec Ideal S4 .f32) : FVec Ideal S64x4 .f32 :=
  addf
    (Host.dotGeneral dot_S64x128_S128x4_S64x4_1_0_0_1_n_n none
      (Host.divf
        (Host.scatterAdd scatter_S64x128_S50000x1_S50000x128_1_0_0_1 (broadcastInDim S64x128 ![] bcast_S_S64x128 zero0)
          (broadcastInDim S50000x1 ![0] bcast_S50000_S50000x1_0 batch)
          (maximumf
            (addf (aggregate128 h2 nu sg src dst)
              (broadcastInDim S50000x128 ![0, 1] bcast_S1x128_S50000x128_0_1 (broadcastInDim S1x128 ![1] bcast_S128_S1x128_1 b2)))
            (broadcastInDim S50000x128 ![] bcast_S_S50000x128 zero0)))
        (broadcastInDim S64x128 ![0, 1] bcast_S64x1_S64x128_0_1 (broadcastInDim S64x1 ![0] bcast_S64_S64x1_0
          (maximumf (broadcastInDim S64 ![] bcast_S_S64 (id one0))
            (Host.scatterAdd scatter_S64_S50000x1_S50000_n_0_0_1 (broadcastInDim S64 ![] bcast_S_S64 zero0)
              (broadcastInDim S50000x1 ![0] bcast_S50000_S50000x1_0 batch) (broadcastInDim S50000 ![] bcast_S_S50000 one0))))))
      wfc)
    (broadcastInDim S64x4 ![0, 1] bcast_S1x4_S64x4_0_1 (broadcastInDim S1x4 ![1] bcast_S4_S1x4_1 bfc))

set_option maxHeartbeats 4000000 in
/-- The kernel program's spelling of the tail is the specification's. -/
theorem afterSecondProduct_eq (h2 : FVec Ideal Cert.ReferenceIdeal.S50000x128 .f32) (nu : FVec Ideal Cert.ReferenceIdeal.S640000 .f32)
    (sg : FVec Ideal Cert.ReferenceIdeal.S50000 .f32) (src dst : IVec Cert.ReferenceIdeal.S640000 32) (batch : IVec Cert.ReferenceIdeal.S50000 32)
    (b2 : FVec Ideal Cert.ReferenceIdeal.S128 .f32) (wfc : FVec Ideal Cert.ReferenceIdeal.S128x4 .f32) (bfc : FVec Ideal Cert.ReferenceIdeal.S4 .f32) :
    afterSecondProduct h2 nu sg src dst batch b2 wfc bfc = Cert.Spec.afterSecondProduct h2 nu sg src dst batch b2 wfc bfc := rfl

end Cert.SpecK

end
-- ==== Proof.KernelValueC.lean ====
/-
  After the second pipelined product: gather through a shorter float format and back (the identity on the extended
  reals), scale, add at the destinations, add the self term and the bias, rectify, pool per graph, classify — read one
  operation at a time from the result buffer back to what the second region leaves.
-/
import proofs.«109365_j63634235457560_2_alg».proof.Proof.Gen.KernelIdeal.Frame
import proofs.«109365_j63634235457560_2_alg».proof.Proof.KernelRegion
import proofs.«109365_j63634235457560_2_alg».proof.Proof.KernelValueA
import proofs.«109365_j63634235457560_2_alg».proof.Proof.SpecK
import proofs.«109365_j63634235457560_2_alg».proof.Proof.Spec
import Idealize.ShloMosaic.Lib.StableHlo.Run

set_option maxRecDepth 16384

noncomputable section

namespace Cert.KernelIdeal.FoldValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The last stretches -/

/-- Gathering rows through a shorter float format and back is gathering them: a change of format is the identity on the
    extended reals. -/
theorem gather_through_format {s si t : Shape} (d : GatherDims s si t) {w : Nat} (X : FVec Ideal s .f32) (idx : IVec si w)
    (h1 : FTy.bf16.bits < FTy.f32.bits) (h2 : FTy.bf16.bits < FTy.f32.bits) :
    extf .f32 (Host.gather d (truncf .bf16 X h1) idx) h2 = Host.gather d X idx := rfl

set_option maxHeartbeats 4000000 in
/-- The result buffer after the last stretch, from what the second region leaves. -/
theorem tail_eq (c : Dev nD) :
    W10 m ρ c (Proc.devRef .tc main_v88)
      = Cert.SpecK.afterSecondProduct (W5 m ρ c (Proc.devRef .tc main_v50)) (W5 m ρ c (Proc.devRef .tc main_v26)) (W5 m ρ c (Proc.devRef .tc main_v27))
          (W5 m ρ c (Proc.devRef .tc main_arg1)) (W5 m ρ c (Proc.devRef .tc main_arg2)) (W5 m ρ c (Proc.devRef .tc main_arg3))
          (W5 m ρ c (Proc.devRef .tc main_arg7)) (W5 m ρ c (Proc.devRef .tc main_arg8)) (W5 m ρ c (Proc.devRef .tc main_arg9)) := by
  show StableHlo.after hostOps2_4 (StableHlo.after hostOps2_3 (StableHlo.after hostOps2_2 (StableHlo.after hostOps2_1 (StableHlo.after hostOps2 (W5 m ρ c))))) (Proc.devRef .tc main_v88) = _
  read_stretch
  rw [gather_through_format]
  rfl

end Cert.KernelIdeal.FoldValue

end
-- ==== Proof.KernelValue.lean ====
/-
  The kernel program's result as a function of its arguments: the pieces of the fold put together.
-/
import proofs.«109365_j63634235457560_2_alg».proof.Proof.Gen.KernelIdeal.Frame
import proofs.«109365_j63634235457560_2_alg».proof.Proof.KernelRegion
import proofs.«109365_j63634235457560_2_alg».proof.Proof.KernelValueA
import proofs.«109365_j63634235457560_2_alg».proof.Proof.KernelValueB
import proofs.«109365_j63634235457560_2_alg».proof.Proof.KernelValueC
import proofs.«109365_j63634235457560_2_alg».proof.Proof.SpecK
import proofs.«109365_j63634235457560_2_alg».proof.Proof.Spec
import Idealize.ShloMosaic.Lib.StableHlo.Run

set_option maxRecDepth 16384

noncomputable section

namespace Cert.KernelIdeal.FoldValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A plain product is the specification's product (the same dimension numbers). -/
theorem prod1_eq (a : FVec Ideal Cert.ReferenceIdeal.S50000x128 .f32) (w : FVec Ideal Cert.ReferenceIdeal.S128x256 .f32) :
    RegionValue.prod 50000 128 256 a w = Cert.Spec.product1 a w := rfl
theorem prod2_eq (a : FVec Ideal Cert.ReferenceIdeal.S50000x256 .f32) (w : FVec Ideal Cert.ReferenceIdeal.S256x128 .f32) :
    RegionValue.prod 50000 256 128 a w = Cert.Spec.product2 a w := rfl

/-- THE KERNEL PROGRAM'S RESULT: the network of the layer-1 value "aggregate first, then multiply". -/
theorem result_eq (c : Dev nD) :
    W10 m ρ c (Proc.devRef .tc main_v88)
      = Cert.Spec.network (Cert.Spec.product1 (Cert.Spec.aggregate128 (m ((c : Thread nD τ).loc main_arg0)) (Cert.Spec.edgeNorm (m ((c : Thread nD τ).loc main_arg1)) (m ((c : Thread nD τ).loc main_arg2))) (Cert.Spec.selfNorm (m ((c : Thread nD τ).loc main_arg2))) (m ((c : Thread nD τ).loc main_arg1)) (m ((c : Thread nD τ).loc main_arg2))) (m ((c : Thread nD τ).loc main_arg4)))
          (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  rw [tail_eq, Cert.SpecK.afterSecondProduct_eq, W5_v26, W5_v27, W5_arg1, W5_arg2, W5_arg3, W5_arg7, W5_arg8, W5_arg9,
    W2_v26, W2_v27, W2_arg1, W2_arg2, W2_arg3, W2_arg7, W2_arg8, W2_arg9,
    region1_eq, entry1_v49, entry1_arg6, region0_eq, entry0_v44, entry0_arg4, prod1_eq, prod2_eq]
  rfl

end Cert.KernelIdeal.FoldValue

end
-- ==== Proof.LibAggregateLinear.lean ====
import Idealize.ShloMosaic.PureOps.Ideal

/-!
# Linearity of neighbourhood aggregation over finite extended reals

A graph-convolution layer forms, for each node, a weighted sum of rows of a feature matrix
over a finite set of neighbours, adds a weighted copy of the node's own row, and multiplies
the result by a weight matrix.  Because matrix multiplication is linear, aggregating first and
multiplying afterwards gives the same numbers as multiplying every row first and aggregating
afterwards.  On the extended reals `[-∞, +∞]` multiplication does not distribute over addition
at the infinities, so the statement is made for entries that are coercions of real numbers,
where both sides are the coercion of one and the same real expression.
-/

namespace Cert.Lib.AggregateLinear

open scoped BigOperators

/-- The inclusion of the reals into the extended reals commutes with finite sums. -/
theorem coe_sum {ι : Type} (S : Finset ι) (f : ι → ℝ) :
    ((∑ i ∈ S, f i : ℝ) : EReal) = ∑ i ∈ S, ((f i : ℝ) : EReal) := by
  classical
  induction S using Finset.induction_on with
  | empty => simp
  | insert a s ha ih =>
    rw [Finset.sum_insert ha, Finset.sum_insert ha, EReal.coe_add, ih]

/-- The real identity behind the layer: for real matrices,
    `∑ₖ (∑ₑ X e k · n e + x0 k · s) · w k = ∑ₑ (∑ₖ X e k · w k) · n e + (∑ₖ x0 k · w k) · s`
    (distribute, then exchange the two finite sums). -/
theorem aggregate_then_transform_real {ι κ : Type} [Fintype κ] (S : Finset ι)
    (X : ι → κ → ℝ) (n : ι → ℝ) (x0 : κ → ℝ) (s : ℝ) (w : κ → ℝ) :
    (∑ k : κ, ((∑ e ∈ S, X e k * n e) + x0 k * s) * w k)
      = (∑ e ∈ S, (∑ k : κ, X e k * w k) * n e) + (∑ k : κ, x0 k * w k) * s := by
  simp only [add_mul, Finset.sum_add_distrib, Finset.sum_mul]
  rw [Finset.sum_comm]
  congr 1
  · refine Finset.sum_congr rfl (fun e _ => Finset.sum_congr rfl (fun k _ => ?_))
    ring
  · refine Finset.sum_congr rfl (fun k _ => ?_)
    ring

/-- Aggregating the rows `X e` over the neighbours `e ∈ S` with weights `n e`, adding the self
    term `x0` with weight `s`, and then taking the inner product with a column `w` equals taking
    the inner product of every row with `w` first and aggregating the resulting scalars.  All
    entries are real numbers viewed as extended reals, so both sides are the coercion of the
    same real number. -/
theorem aggregate_then_transform {ι κ : Type} [Fintype κ] (S : Finset ι) (X : ι → κ → ℝ)
    (n : ι → ℝ) (x0 : κ → ℝ) (s : ℝ) (w : κ → ℝ) :
    (∑ k : κ, ((((0 : EReal) + ∑ e ∈ S, ((X e k : ℝ) : EReal) * ((n e : ℝ) : EReal))
        + ((x0 k : ℝ) : EReal) * ((s : ℝ) : EReal)) * ((w k : ℝ) : EReal)))
    = ((0 : EReal) + ∑ e ∈ S, (∑ k : κ, ((X e k : ℝ) : EReal) * ((w k : ℝ) : EReal))
        * ((n e : ℝ) : EReal))
      + (∑ k : κ, ((x0 k : ℝ) : EReal) * ((w k : ℝ) : EReal)) * ((s : ℝ) : EReal) := by
  simp only [zero_add, ← EReal.coe_mul, ← coe_sum, ← EReal.coe_add]
  exact congrArg _ (aggregate_then_transform_real S X n x0 s w)

/-- A product of two real numbers, formed in the extended reals, is again a real number. -/
theorem coe_mul_coe_real (a b : ℝ) :
    ∃ r : ℝ, ((a : ℝ) : EReal) * ((b : ℝ) : EReal) = ((r : ℝ) : EReal) :=
  ⟨a * b, (EReal.coe_mul a b).symm⟩

/-- A sum of two real numbers, formed in the extended reals, is again a real number. -/
theorem coe_add_coe_real (a b : ℝ) :
    ∃ r : ℝ, ((a : ℝ) : EReal) + ((b : ℝ) : EReal) = ((r : ℝ) : EReal) :=
  ⟨a + b, (EReal.coe_add a b).symm⟩

/-- A finite sum of real numbers, formed in the extended reals, is again a real number. -/
theorem sum_coe_real {ι : Type} (S : Finset ι) (f : ι → ℝ) :
    ∃ r : ℝ, (∑ i ∈ S, ((f i : ℝ) : EReal)) = ((r : ℝ) : EReal) :=
  ⟨∑ i ∈ S, f i, (coe_sum S f).symm⟩

/-- On a real argument the reciprocal square root is decided by the sign of the argument. -/
theorem rsqrt_coe (r : ℝ) :
    Idealize.ShloMosaic.Ideal.rsqrt ((r : ℝ) : EReal)
      = if r < 0 then ⊥ else if r = 0 then ⊤ else (((Real.sqrt r)⁻¹ : ℝ) : EReal) := rfl

/-- The reciprocal square root of a positive real number is the real number `1 / √r`. -/
theorem rsqrt_coe_of_pos {r : ℝ} (hr : 0 < r) :
    Idealize.ShloMosaic.Ideal.rsqrt ((r : ℝ) : EReal) = (((Real.sqrt r)⁻¹ : ℝ) : EReal) := by
  rw [rsqrt_coe, if_neg (not_lt.mpr hr.le), if_neg hr.ne']

/-- Counting the elements of a finite set by adding a one for each, and then adding one more,
    gives the real number `card S + 1`. -/
theorem count_add_one_eq {ι : Type} (S : Finset ι) :
    (((0 : EReal) + ∑ _j ∈ S, (1 : EReal)) + 1) = (((S.card : ℝ) + 1 : ℝ) : EReal) := by
  have h1 : (∑ _j ∈ S, (1 : EReal)) = (((S.card : ℝ) : ℝ) : EReal) := by
    have := coe_sum S (fun _ => (1 : ℝ))
    simp only [Finset.sum_const, nsmul_eq_mul, mul_one, EReal.coe_one] at this
    rw [this, Finset.sum_const]
  rw [zero_add, h1, EReal.coe_add, EReal.coe_one]

/-- The degree normalisation `1 / √(deg + 1)`, with the degree counted as a sum of ones over the
    neighbours, is a (positive) real number: the argument `card S + 1` is a positive real. -/
theorem rsqrt_count_add_one_real {ι : Type} (S : Finset ι) :
    ∃ r : ℝ, Idealize.ShloMosaic.Ideal.rsqrt (((0 : EReal) + ∑ _j ∈ S, (1 : EReal)) + 1)
      = ((r : ℝ) : EReal) := by
  have hpos : (0 : ℝ) < (S.card : ℝ) + 1 := by positivity
  exact ⟨(Real.sqrt ((S.card : ℝ) + 1))⁻¹, by rw [count_add_one_eq, rsqrt_coe_of_pos hpos]⟩

end Cert.Lib.AggregateLinear
-- ==== Proof.LibRowGatherScatter.lean ====
/-
  Row gather and row scatter-add of a 2-D array, read at an index.

  For an array `x : [N, D]` and a column of integer row numbers `idx : [E, 1]`:
  * the row gather `x[idx]` (result `[E, D]`) has element `(e, k)` equal to `x` at row `idx[e, 0]` — read as a signed
    integer and clamped into `[0, N − 1]` — and column `k`;
  * the row scatter-add of updates `upd : [E, D]` into `x` has element `(n, k)` equal to `x (n, k)` plus the sum of
    `upd (e, k)` over those `e` whose row number `idx[e, 0]`, read as a signed integer and NOT clamped, is `n`.
  The row function and the set of contributing `e` do not depend on the width `D`.
-/
import Idealize.ShloMosaic.PureOps.Ideal
import Idealize.ShloMosaic.Lib.ValueIdx

noncomputable section

open scoped BigOperators

namespace Cert.Lib.RowGatherScatter

open Idealize.ShloMosaic Idealize.ShloMosaic.ValueIdx

/-! ## The dimension numbers -/

/-- The gather's dimension numbers for an operand `[N, D]`, start indices `[E, 1]` and result `[E, D]`: result axis 1
    is the one offset axis (it runs over the operand's axis 1, whole: slice sizes `[1, D]`), operand axis 0 is collapsed
    and is the one the start index names; the index vector lies along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The scatter's dimension numbers for an operand `[N, D]`, scatter indices `[E, 1]` and updates `[E, D]`: update
    axis 1 is the one window axis (it goes to the operand's axis 1), operand axis 0 is inserted and is the one the
    scatter index names; the index vector lies along axis 1 of the scatter indices. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a start index selects: `idx[e, 0]` read as a signed integer and clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-! ## The row gather read at an index -/

section Gather
variable {α : Type}

/-- The start-indices index the gather reads for result index `(e, k)`: `[e, 0]`, whatever `k` is. -/
theorem gather_siIdx {N D E : Nat}
    (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    have := c.isLt
    show c.val = 0
    simpa using this

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k) = x (ix2 (rowOf N hN idx e) k) := by
  unfold Host.gather
  congr 1
  funext a; refine Fin.ext ?_
  match a with
  | ⟨0, _⟩ =>
    -- axis 0 is collapsed and named by the start index: the clamped start, nothing added
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    rw [gather_siIdx]
    rfl
  | ⟨1, _⟩ =>
    -- axis 1 is the offset axis, not named by the start index: start 0, the result's own coordinate on it
    show (rowGatherDims N D E wf).start (ix2 e k) idx 1 + (rowGatherDims N D E wf).batchCoord (ix2 e k) 1
      + (rowGatherDims N D E wf).offCoord (ix2 e k) 1 = k.val
    have h10 : (1 : Fin 2) ∉ ([0] : List (Fin 2)) := by decide
    rw [GatherDims.batchCoord_eq_zero _ _ _ List.not_mem_nil]
    have hs : (rowGatherDims N D E wf).start (ix2 e k) idx 1 = 0 := by
      unfold GatherDims.start
      rw [dif_neg h10]
    rw [hs]
    simp only [Nat.add_zero, Nat.zero_add]
    unfold GatherDims.offCoord
    rw [dif_pos ((GatherDims.mem_sKept _ _).mpr ⟨h10, List.not_mem_nil⟩)]
    rfl

end Gather

/-! ## The row scatter-add read at an index -/

section Scatter

/-- An update lands at operand index `i` exactly when, on every axis, its start (read signed) plus its window
    coordinate is `i`'s coordinate: the in-range condition is then `i`'s own. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have ha := congrArg Fin.val (congrFun (Option.some.inj h) a)
      have := hh a
      simp only at ha
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a; refine Fin.ext ?_
    have := h a
    simp only
    omega

variable {N D E w : Nat} (wf : ScatterDims.WF ⟨2, ![N, D]⟩ ⟨2, ![E, 1]⟩ ⟨2, ![E, D]⟩ [1] [0] [0] 1)

/-- The scatter-indices index the scatter reads for update index `(e, k)`: `[e, 0]`, whatever `k` is. -/
theorem scatter_siIdx (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    have := c.isLt
    show c.val = 0
    simpa using this

/-- On axis 0 the start is the scatter index `idx[e, 0]`, read signed and not clamped. -/
theorem scatter_start0 (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [scatter_siIdx]

/-- On axis 1, which the scatter index does not name, the start is 0. -/
theorem scatter_start1 (idx : IVec ⟨2, ![E, 1]⟩ w) (e : Fin E) (k : Fin D) :
    (rowScatterDims N D E wf).start (ix2 e k) idx 1 = 0 := by
  unfold ScatterDims.start
  rw [dif_neg (show (1 : Fin 2) ∉ ([0] : List (Fin 2)) by decide)]

/-- Axis 0 is inserted: no window coordinate. -/
theorem scatter_window0 (e : Fin E) (k : Fin D) : (rowScatterDims N D E wf).window (ix2 e k) 0 = 0 := by
  unfold ScatterDims.window
  rw [dif_neg]
  simp [ScatterDims.sKept, Shape.kept]

/-- Axis 1 takes the update's own coordinate on its window axis. -/
theorem scatter_window1 (e : Fin E) (k : Fin D) : (rowScatterDims N D E wf).window (ix2 e k) 1 = k.val := by
  unfold ScatterDims.window
  rw [dif_pos (by simp [ScatterDims.sKept, Shape.kept])]
  rfl

/-- WHERE AN UPDATE LANDS: update `(e, k')` lands on operand element `(n, k)` exactly when its scatter index `idx[e, 0]`,
    read as a signed integer, is `n`, and `k' = k`. -/
theorem resultIdx?_eq_some_iff (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : Int) ∧ k' = k := by
  rw [resultIdx?_eq_some_iff_forall]
  have h2 : ∀ P : Fin 2 → Prop, (∀ a, P a) ↔ P 0 ∧ P 1 := fun P => Fin.forall_fin_two
  refine (h2 _).trans ?_
  rw [scatter_start0, scatter_start1, scatter_window0, scatter_window1]
  show (idx (ix2 e (0 : Fin 1))).toInt + ((0 : Nat) : Int) = (n.val : Int) ∧ (0 : Int) + (k'.val : Int) = (k.val : Int) ↔ _
  constructor
  · rintro ⟨h0, h1⟩
    exact ⟨by omega, Fin.ext (by omega)⟩
  · rintro ⟨h0, rfl⟩
    exact ⟨by omega, by omega⟩

/-- THE ROW SCATTER-ADD READ AT `(n, k)`: the operand's element plus the sum of the updates `(e, k)` over the `e` whose
    scatter index `idx[e, 0]`, read as a signed integer and not clamped, is `n`. -/
theorem scatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N D E wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases hq : (idx (ix2 e (0 : Fin 1))).toInt = (n.val : Int)
  · simp only [hq, true_and, if_true]
    rw [Finset.sum_ite_eq']
    simp
  · simp [hq]

end Scatter

end Cert.Lib.RowGatherScatter

end
-- ==== Proof.Layer1Base.lean ====
/-
  Reading the pieces of one aggregation at an entry: a per-edge or per-node weight broadcast along the feature axis, the
  zero array, the first matrix product as a sum over the input features, and the programs' gathers and scatters as the
  row gather and the row scatter-add.
-/
import proofs.«109365_j63634235457560_2_alg».proof.Proof.Spec
import proofs.«109365_j63634235457560_2_alg».proof.Proof.LibAggregateLinear
import proofs.«109365_j63634235457560_2_alg».proof.Proof.LibRowGatherScatter
import Idealize.ShloMosaic.Lib.Pipeline.Value
import Idealize.ShloMosaic.Lib.ValueIdx
import Idealize.ShloMosaic.Lib.StackMember
import Idealize.ShloMosaic.PureOps.Ideal.Laws

noncomputable section

namespace Cert.Spec.Layer1

open Idealize.ShloMosaic Idealize.ShloMosaic.ValueIdx Cert.ReferenceIdeal Cert.ReferenceIdeal.Facts₀
open Cert.Lib.RowGatherScatter Cert.Spec

/-- The set of edges whose destination is node n (the destination read as a signed integer, unclamped). -/
abbrev edgesInto (dst : IVec S640000 32) (n : Fin 50000) : Finset (Fin 640000) :=
  Finset.univ.filter (fun e : Fin 640000 => (colIdx dst (ix2 e (0 : Fin 1))).toInt = (n.val : Int))

/-- The source row of edge e (wrapped if negative, then clamped into the array). -/
abbrev srcRow (src : IVec S640000 32) (e : Fin 640000) : Fin 50000 := rowOf 50000 (by decide) (wrapIdx src) e

/-- A per-edge weight broadcast along the feature axis reads the edge's weight. -/
theorem edge_bcast128 (nu : FVec Ideal S640000 .f32) (e : Fin 640000) (k : Fin 128) :
    broadcastInDim S640000x128 ![0, 1] bcast_S640000x1_S640000x128_0_1 (broadcastInDim S640000x1 ![0] bcast_S640000_S640000x1_0 nu) (ix2 e k) = nu (ix1 e) := by
  rw [broadcastInDim_apply _ bcast_S640000x1_S640000x128_0_1 _ (ix2 e k) (ix2 e (0 : Fin 1)) (fun a => match a with
    | ⟨0, _⟩ => by show e.val = if (640000 : Nat) = 1 then 0 else e.val; rw [if_neg (by decide)]
    | ⟨1, _⟩ => by show 0 = if (1 : Nat) = 1 then 0 else k.val; rw [if_pos rfl])]
  exact broadcastInDim_apply _ bcast_S640000_S640000x1_0 nu (ix2 e (0 : Fin 1)) (ix1 e) (fun a => match a with
    | ⟨0, _⟩ => by show e.val = if (640000 : Nat) = 1 then 0 else e.val; rw [if_neg (by decide)])

theorem edge_bcast256 (nu : FVec Ideal S640000 .f32) (e : Fin 640000) (k : Fin 256) :
    broadcastInDim S640000x256 ![0, 1] bcast_S640000x1_S640000x256_0_1 (broadcastInDim S640000x1 ![0] bcast_S640000_S640000x1_0 nu) (ix2 e k) = nu (ix1 e) := by
  rw [broadcastInDim_apply _ bcast_S640000x1_S640000x256_0_1 _ (ix2 e k) (ix2 e (0 : Fin 1)) (fun a => match a with
    | ⟨0, _⟩ => by show e.val = if (640000 : Nat) = 1 then 0 else e.val; rw [if_neg (by decide)]
    | ⟨1, _⟩ => by show 0 = if (1 : Nat) = 1 then 0 else k.val; rw [if_pos rfl])]
  exact broadcastInDim_apply _ bcast_S640000_S640000x1_0 nu (ix2 e (0 : Fin 1)) (ix1 e) (fun a => match a with
    | ⟨0, _⟩ => by show e.val = if (640000 : Nat) = 1 then 0 else e.val; rw [if_neg (by decide)])

/-- A per-node weight broadcast along the feature axis reads the node's weight. -/
theorem node_bcast128 (sg : FVec Ideal S50000 .f32) (n : Fin 50000) (k : Fin 128) :
    broadcastInDim S50000x128 ![0, 1] bcast_S50000x1_S50000x128_0_1 (broadcastInDim S50000x1 ![0] bcast_S50000_S50000x1_0 sg) (ix2 n k) = sg (ix1 n) := by
  rw [broadcastInDim_apply _ bcast_S50000x1_S50000x128_0_1 _ (ix2 n k) (ix2 n (0 : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])]
  exact broadcastInDim_apply _ bcast_S50000_S50000x1_0 sg (ix2 n (0 : Fin 1)) (ix1 n) (fun a => match a with
    | ⟨0, _⟩ => by show n.val = if (50000 : Nat) = 1 then 0 else n.val; rw [if_neg (by decide)])

theorem node_bcast256 (sg : FVec Ideal S50000 .f32) (n : Fin 50000) (k : Fin 256) :
    broadcastInDim S50000x256 ![0, 1] bcast_S50000x1_S50000x256_0_1 (broadcastInDim S50000x1 ![0] bcast_S50000_S50000x1_0 sg) (ix2 n k) = sg (ix1 n) := by
  rw [broadcastInDim_apply _ bcast_S50000x1_S50000x256_0_1 _ (ix2 n k) (ix2 n (0 : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])]
  exact broadcastInDim_apply _ bcast_S50000_S50000x1_0 sg (ix2 n (0 : Fin 1)) (ix1 n) (fun a => match a with
    | ⟨0, _⟩ => by show n.val = if (50000 : Nat) = 1 then 0 else n.val; rw [if_neg (by decide)])

/-- The zero array reads 0. -/
theorem zeros128 (i : S50000x128.Idx) : broadcastInDim S50000x128 ![] bcast_S_S50000x128 zero0 i = (0 : EReal) := by
  show Ideal.ofBits .f32 0x00000000#32 = 0
  exact Ideal.ofBits_zero_f32
theorem zeros256 (i : S50000x256.Idx) : broadcastInDim S50000x256 ![] bcast_S_S50000x256 zero0 i = (0 : EReal) := by
  show Ideal.ofBits .f32 0x00000000#32 = 0
  exact Ideal.ofBits_zero_f32

/-- The first product read at an entry: the sum over the 128 input features. -/
theorem product1_apply (a : FVec Ideal S50000x128 .f32) (w : FVec Ideal S128x256 .f32) (n : Fin 50000) (j : Fin 256) :
    product1 a w (ix2 n j) = ∑ k : Fin 128, a (ix2 n k) * w (ix2 k j) :=
  StackMember.dotGeneral_plain_apply (m := 50000) (n := 256) (k := 128) none a w n j

/-- The programs' row gathers and row scatters are the library's, at widths 128 and 256. -/
theorem gather128_eq : gather_S50000x128_S640000x1_S640000x128_1_0_n_n_0_1_1128
    = rowGatherDims 50000 128 640000 gather_S50000x128_S640000x1_S640000x128_1_0_n_n_0_1_1128_wf := rfl
theorem gather256_eq : gather_S50000x256_S640000x1_S640000x256_1_0_n_n_0_1_1256
    = rowGatherDims 50000 256 640000 gather_S50000x256_S640000x1_S640000x256_1_0_n_n_0_1_1256_wf := rfl
theorem scatter128_eq : scatter_S50000x128_S640000x1_S640000x128_1_0_0_1
    = rowScatterDims 50000 128 640000 scatter_S50000x128_S640000x1_S640000x128_1_0_0_1_wf := rfl
theorem scatter256_eq : scatter_S50000x256_S640000x1_S640000x256_1_0_0_1
    = rowScatterDims 50000 256 640000 scatter_S50000x256_S640000x1_S640000x256_1_0_0_1_wf := rfl

/-- The host's accumulating scatter is the ideal instance's exact sum. -/
theorem scatterAdd_eq {s si su : Shape} (d : ScatterDims s si su) {w : Nat} (x : FVec Ideal s .f32) (idx : IVec si w)
    (u : FVec Ideal su .f32) : Host.scatterAdd d x idx u = Ideal.hostScatterAdd d x idx u := rfl

end Cert.Spec.Layer1

end
-- ==== Proof.Layer1Agg128.lean ====
/-
  One aggregation at width 128, read at an entry (n, k): the sum over the edges into node n of the source row's entry
  times the edge weight, plus the node's own entry times its self weight.
-/
import proofs.«109365_j63634235457560_2_alg».proof.Proof.Spec
import proofs.«109365_j63634235457560_2_alg».proof.Proof.LibAggregateLinear
import proofs.«109365_j63634235457560_2_alg».proof.Proof.LibRowGatherScatter
import Idealize.ShloMosaic.Lib.Pipeline.Value
import Idealize.ShloMosaic.Lib.ValueIdx
import Idealize.ShloMosaic.Lib.StackMember
import Idealize.ShloMosaic.PureOps.Ideal.Laws
import proofs.«109365_j63634235457560_2_alg».proof.Proof.Layer1Base

noncomputable section

namespace Cert.Spec.Layer1

open Idealize.ShloMosaic Idealize.ShloMosaic.ValueIdx Cert.ReferenceIdeal Cert.ReferenceIdeal.Facts₀
open Cert.Lib.RowGatherScatter Cert.Spec

theorem aggregate128_apply (h : FVec Ideal S50000x128 .f32) (nu : FVec Ideal S640000 .f32) (sg : FVec Ideal S50000 .f32)
    (src dst : IVec S640000 32) (n : Fin 50000) (k : Fin 128) :
    aggregate128 h nu sg src dst (ix2 n k)
      = ((0 : EReal) + ∑ e ∈ edgesInto dst n, h (ix2 (srcRow src e) k) * nu (ix1 e)) + h (ix2 n k) * sg (ix1 n) := by
  unfold aggregate128
  rw [addf_apply, mulf_apply, scatterAdd_eq, scatter128_eq, scatterAdd_rows_apply, zeros128, node_bcast128]
  refine congrArg (fun z => ((0 : EReal) + z) + h (ix2 n k) * sg (ix1 n)) (Finset.sum_congr rfl fun e _ => ?_)
  rw [mulf_apply, gather128_eq, gather_rows_apply (by decide : 0 < 50000), edge_bcast128]

end Cert.Spec.Layer1

end
-- ==== Proof.Layer1Agg256.lean ====
/-
  One aggregation at width 256, read at an entry (n, k): the sum over the edges into node n of the source row's entry
  times the edge weight, plus the node's own entry times its self weight.
-/
import proofs.«109365_j63634235457560_2_alg».proof.Proof.Spec
import proofs.«109365_j63634235457560_2_alg».proof.Proof.LibAggregateLinear
import proofs.«109365_j63634235457560_2_alg».proof.Proof.LibRowGatherScatter
import Idealize.ShloMosaic.Lib.Pipeline.Value
import Idealize.ShloMosaic.Lib.ValueIdx
import Idealize.ShloMosaic.Lib.StackMember
import Idealize.ShloMosaic.PureOps.Ideal.Laws
import proofs.«109365_j63634235457560_2_alg».proof.Proof.Layer1Base

noncomputable section

namespace Cert.Spec.Layer1

open Idealize.ShloMosaic Idealize.ShloMosaic.ValueIdx Cert.ReferenceIdeal Cert.ReferenceIdeal.Facts₀
open Cert.Lib.RowGatherScatter Cert.Spec

theorem aggregate256_apply (h : FVec Ideal S50000x256 .f32) (nu : FVec Ideal S640000 .f32) (sg : FVec Ideal S50000 .f32)
    (src dst : IVec S640000 32) (n : Fin 50000) (k : Fin 256) :
    aggregate256 h nu sg src dst (ix2 n k)
      = ((0 : EReal) + ∑ e ∈ edgesInto dst n, h (ix2 (srcRow src e) k) * nu (ix1 e)) + h (ix2 n k) * sg (ix1 n) := by
  unfold aggregate256
  rw [addf_apply, mulf_apply, scatterAdd_eq, scatter256_eq, scatterAdd_rows_apply, zeros256, node_bcast256]
  refine congrArg (fun z => ((0 : EReal) + z) + h (ix2 n k) * sg (ix1 n)) (Finset.sum_congr rfl fun e _ => ?_)
  rw [mulf_apply, gather256_eq, gather_rows_apply (by decide : 0 < 50000), edge_bcast256]

end Cert.Spec.Layer1

end
-- ==== Proof.Layer1.lean ====
/-
  The one algebraic step of the certificate: aggregation commutes with the first weight matrix.

  With S(n) = {e : dst e = n} the edges into node n, r(e) the (clamped) source row of edge e, ν the edge weights and σ the
  self weights, the kernel's layer-1 value at (n, j) is
      ∑_k ( ∑_{e ∈ S(n)} x(r e, k) · ν(e) + x(n, k) · σ(n) ) · W(k, j)
  and the reference's is
      ∑_{e ∈ S(n)} ( ∑_k x(r e, k) · W(k, j) ) · ν(e) + ( ∑_k x(n, k) · W(k, j) ) · σ(n).
  They are equal by distributivity and exchanging the two finite sums — laws that hold on the extended reals only away
  from the infinities, which is where the hypotheses (every entry of x, W, ν, σ is a real number) are used.
-/
import proofs.«109365_j63634235457560_2_alg».proof.Proof.Spec
import proofs.«109365_j63634235457560_2_alg».proof.Proof.LibAggregateLinear
import proofs.«109365_j63634235457560_2_alg».proof.Proof.LibRowGatherScatter
import Idealize.ShloMosaic.Lib.Pipeline.Value
import Idealize.ShloMosaic.Lib.ValueIdx
import Idealize.ShloMosaic.Lib.StackMember
import Idealize.ShloMosaic.PureOps.Ideal.Laws
import proofs.«109365_j63634235457560_2_alg».proof.Proof.Layer1Base
import proofs.«109365_j63634235457560_2_alg».proof.Proof.Layer1Agg128
import proofs.«109365_j63634235457560_2_alg».proof.Proof.Layer1Agg256

noncomputable section

namespace Cert.Spec.Layer1

open Idealize.ShloMosaic Idealize.ShloMosaic.ValueIdx Cert.ReferenceIdeal Cert.ReferenceIdeal.Facts₀
open Cert.Lib.RowGatherScatter Cert.Spec

/-- AGGREGATE-THEN-TRANSFORM IS TRANSFORM-THEN-AGGREGATE, for real-valued features, weights and normalisations. -/
theorem aggregate_product_comm (x : FVec Ideal S50000x128 .f32) (w1 : FVec Ideal S128x256 .f32)
    (nu : FVec Ideal S640000 .f32) (sg : FVec Ideal S50000 .f32) (src dst : IVec S640000 32)
    (hx : ∀ i, ∃ r : ℝ, x i = ((r : ℝ) : EReal)) (hw : ∀ i, ∃ r : ℝ, w1 i = ((r : ℝ) : EReal))
    (hnu : ∀ i, ∃ r : ℝ, nu i = ((r : ℝ) : EReal)) (hsg : ∀ i, ∃ r : ℝ, sg i = ((r : ℝ) : EReal)) :
    product1 (aggregate128 x nu sg src dst) w1 = aggregate256 (product1 x w1) nu sg src dst := by
  choose xr hxr using hx
  choose wr hwr using hw
  choose nr hnr using hnu
  choose sr hsr using hsg
  funext i
  obtain ⟨n, j, rfl⟩ : ∃ (n : Fin 50000) (j : Fin 256), i = ix2 n j := ⟨i 0, i 1, eq_ix2 i⟩
  rw [product1_apply, aggregate256_apply]
  simp only [aggregate128_apply, product1_apply, hxr, hwr, hnr, hsr]
  exact Cert.Lib.AggregateLinear.aggregate_then_transform (edgesInto dst n) (fun e k => xr (ix2 (srcRow src e) k))
    (fun e => nr (ix1 e)) (fun k => xr (ix2 n k)) (sr (ix1 n)) (fun k => wr (ix2 k j))

end Cert.Spec.Layer1

end
-- ==== Proof.NormReal.lean ====
/-
  The degree normalisations are real numbers.

  The degree of node i is 1 plus the number of edges whose (wrapped) destination is i: a sum of ones over a finite set,
  plus one — a positive real — so its inverse square root d(i)^(-1/2) is a real, and so are the edge weights
  ν(e) = d(·)^(-1/2) · d(·)^(-1/2) (whatever rows the clamped gather reads) and the self weights σ(i) = d(i)^(-1).
-/
import proofs.«109365_j63634235457560_2_alg».proof.Proof.Spec
import proofs.«109365_j63634235457560_2_alg».proof.Proof.LibAggregateLinear
import Idealize.ShloMosaic.PureOps.Ideal.Laws
import Idealize.ShloMosaic.Lib.ValueIdx

noncomputable section

namespace Cert.Spec.NormReal

open Idealize.ShloMosaic Idealize.ShloMosaic Cert.ReferenceIdeal Cert.ReferenceIdeal.Facts₀ Cert.Spec Cert.Lib.AggregateLinear

/-- The pattern of 1.0 denotes the real 1. -/
theorem ofBits_one : Ideal.ofBits .f32 0x3F800000#32 = 1 := by
  simp [Ideal.ofBits, Ideal.ieee, -EReal.coe_mul]; norm_num

/-- Counting into a zero array by adding 1 per landing update, plus 1, has a real inverse square root — whatever the
    scatter's dimension numbers and indices are. -/
theorem rsqrt_count_real {s si su : Shape} (d : ScatterDims s si su) {w : Nat} (idx : IVec si w) (i : s.Idx) :
    ∃ r : ℝ, Ideal.rsqrt (Ideal.hostScatterAdd d (fun _ => (0 : EReal)) idx (fun _ => (1 : EReal)) i + 1) = ((r : ℝ) : EReal) := by
  unfold Ideal.hostScatterAdd
  exact rsqrt_count_add_one_real _

/-- The host's inverse square root reads elementwise. -/
theorem rsqrt_apply {s : Shape} (x : FVec Ideal s .f32) (i : s.Idx) : Host.rsqrt x i = Ideal.rsqrt (x i) := rfl

/-- The host's accumulating scatter is the ideal instance's exact sum. -/
theorem scatterAdd_apply {s si su : Shape} (d : ScatterDims s si su) {w : Nat} (x : FVec Ideal s .f32) (idx : IVec si w)
    (u : FVec Ideal su .f32) (i : s.Idx) : Host.scatterAdd d x idx u i = Ideal.hostScatterAdd d x idx u i := rfl

/-- A broadcast scalar constant reads the number its pattern denotes. -/
theorem splat_apply {s : Shape} (h : S_.BroadcastsInDim s (![] : Fin 0 → Fin s.rank)) (b : BitVec 32) (i : s.Idx) :
    broadcastInDim s ![] h (constant (F := Ideal) S_ .f32 b) i = Ideal.ofBits .f32 b := rfl

theorem splat_zero {s : Shape} (h : S_.BroadcastsInDim s (![] : Fin 0 → Fin s.rank)) :
    broadcastInDim s ![] h zero0 = fun _ => (0 : EReal) := funext fun i => (splat_apply h _ i).trans Ideal.ofBits_zero_f32
theorem splat_one {s : Shape} (h : S_.BroadcastsInDim s (![] : Fin 0 → Fin s.rank)) :
    broadcastInDim s ![] h one0 = fun _ => (1 : EReal) := funext fun i => (splat_apply h _ i).trans ofBits_one

/-- d(i)^(-1/2) is a real number. -/
theorem dinv_real (dst : IVec S640000 32) (i : S50000.Idx) : ∃ r : ℝ, dinv dst i = ((r : ℝ) : EReal) := by
  unfold dinv
  rw [rsqrt_apply, ValueIdx.addf_apply, scatterAdd_apply, splat_zero, splat_one, splat_one]
  exact rsqrt_count_real _ _ _

/-- ν(e) is a real number. -/
theorem edgeNorm_real (src dst : IVec S640000 32) (e : S640000.Idx) : ∃ r : ℝ, edgeNorm src dst e = ((r : ℝ) : EReal) := by
  unfold edgeNorm
  rw [ValueIdx.mulf_apply]
  show ∃ r : ℝ, dinv dst (gather_S50000_S640000x1_S640000_n_0_n_n_0_1_1.operandIdx e (wrapIdx src))
      * dinv dst (gather_S50000_S640000x1_S640000_n_0_n_n_0_1_1.operandIdx e (wrapIdx dst)) = ((r : ℝ) : EReal)
  obtain ⟨a, ha⟩ := dinv_real dst (gather_S50000_S640000x1_S640000_n_0_n_n_0_1_1.operandIdx e (wrapIdx src))
  obtain ⟨b, hb⟩ := dinv_real dst (gather_S50000_S640000x1_S640000_n_0_n_n_0_1_1.operandIdx e (wrapIdx dst))
  rw [ha, hb]
  exact coe_mul_coe_real a b

/-- σ(i) is a real number. -/
theorem selfNorm_real (dst : IVec S640000 32) (i : S50000.Idx) : ∃ r : ℝ, selfNorm dst i = ((r : ℝ) : EReal) := by
  unfold selfNorm
  rw [ValueIdx.mulf_apply]
  obtain ⟨a, ha⟩ := dinv_real dst i
  rw [ha]
  exact coe_mul_coe_real a a

end Cert.Spec.NormReal

end
-- ==== Proof.FiniteInputs.lean ====
/-
  From the precondition "every float input is finite" to "every entry of the node features and of the
  first weight matrix is (the coercion of) a real number".

  At the ideal instance a float is an extended real. The precondition compares, entry by entry, the
  absolute value `max a (-a)` with `+∞` by a strict `<`, takes the conjunction over all entries of each
  array, and then the conjunction of the seven per-array results. If the whole conjunction is 1 then each
  per-array conjunction is 1, hence each entry's comparison is 1, hence `max a (-a) < ⊤`; the two
  infinities both have absolute value `⊤`, so the entry is a real number.
-/
import proofs.«109365_j63634235457560_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Proof.FiniteInputs

open Idealize.ShloMosaic
open Cert.Pre_finite_inputs

/-- An extended real whose absolute value `max a (-a)` is strictly below `⊤` is a real number:
    `⊥` and `⊤` both have absolute value `⊤`. -/
theorem real_of_abs_lt_top (a : EReal) (h : max a (-a) < ⊤) : ∃ r : ℝ, a = ((r : ℝ) : EReal) := by
  induction a using EReal.rec with
  | bot => simp at h
  | coe r => exact ⟨r, rfl⟩
  | top => simp at h

/-- The pattern `0x7F800000` (sign 0, exponent all ones, fraction 0) denotes `+∞`. -/
theorem inf_bits : Ideal.ofBits .f32 0x7F800000#32 = (⊤ : EReal) := by
  simp [Ideal.ofBits, Ideal.ieee]

/-- The per-entry step, for any shape: if the comparison `|x| < +∞` is 1 at the index `i`, then the entry
    `x i` is a real number. The right operand is the scalar constant broadcast to the shape, so its value
    at every index is the constant. -/
theorem real_of_cmp {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = ((r : ℝ) : EReal) := by
  have h' : BitVec.ofBool (decide (max (x i) (-(x i)) < Ideal.ofBits .f32 0x7F800000#32)) = 1#1 := h
  rw [inf_bits] at h'
  refine real_of_abs_lt_top (x i) ?_
  by_contra hn
  simp [hn] at h'

/-- The result shape of the reductions has exactly one index. -/
instance : Subsingleton S_.Idx := ⟨fun a b => funext fun d => d.elim0⟩

/-- The precondition gives: every entry of the node features `x0` and of the first weight matrix `x4` is a real number. -/
theorem real_of_pre [Cert.Pre_finite_inputs.Facts] (x0 : FVec Ideal S50000x128 .f32) (x1 x2 : IVec S640000 32) (x3 : IVec S50000 32) (x4 : FVec Ideal S128x256 .f32) (x5 : FVec Ideal S256 .f32) (x6 : FVec Ideal S256x128 .f32) (x7 : FVec Ideal S128 .f32) (x8 : FVec Ideal S128x4 .f32) (x9 : FVec Ideal S4 .f32)
    (h : Cert.Pre_finite_inputs.fn (F := Ideal) x0 x1 x2 x3 x4 x5 x6 x7 x8 x9 = fun _ => 1#1) :
    (∀ i, ∃ r : ℝ, x0 i = ((r : ℝ) : EReal)) ∧ (∀ i, ∃ r : ℝ, x4 i = ((r : ℝ) : EReal)) := by
  have h0 := congrFun h ValueIdx.ix0
  dsimp only [Cert.Pre_finite_inputs.fn, Cert.Pre_finite_inputs.fn_part1, andi] at h0
  -- the conjunction of seven, associated to the left: peel off the last five
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨ha, hb⟩ := IntOp.andi_eq_one.1 h0
  exact ⟨fun i => real_of_cmp _ x0 i (Host.reduce_andi_all _ _ _ _ _ ha i),
    fun i => real_of_cmp _ x4 i (Host.reduce_andi_all _ _ _ _ _ hb i)⟩

end Cert.Proof.FiniteInputs

end
-- ==== Proof.lean ====
/-
  A two-layer graph convolution with mean pooling and a linear classifier, computed two ways, is one function of its
  inputs on the extended reals whenever the float inputs are finite.

  The kernel program aggregates the raw node features over the graph and then multiplies by the first weight matrix in a
  pipelined kernel; the reference multiplies first and aggregates the product. Aggregation is a finite linear map with
  real coefficients (the symmetric degree normalisation: inverse square roots of positive integers), so the two orders
  agree when the features and the weights are real numbers — that is the only place the precondition is used
  (Proof/Layer1.lean, over Proof/LibAggregateLinear.lean and Proof/LibRowGatherScatter.lean; the coefficients are real by
  Proof/NormReal.lean; the inputs by Proof/FiniteInputs.lean). Everything downstream of that value is the same composition
  of the same operations in both programs (Proof/Spec.lean): the reference's run gives it directly
  (Proof/RefValue.lean); the kernel program's run is read back through its stretches of host operations and its two
  pipelined products, each of which leaves the whole product in its output array because its row blocks tile it
  (Proof/KernelRun.lean, Proof/KernelRegion.lean, Proof/KernelValue.lean). The kernel rounds to a shorter float format
  before each product and before the second gather; on the extended reals a change of format is the identity.
  The idealization rewrote nothing, so "preserves" has nothing to state.
-/
import proofs.«109365_j63634235457560_2_alg».proof.Defs
import proofs.«109365_j63634235457560_2_alg».proof.Proof.Gen.Kernel
import proofs.«109365_j63634235457560_2_alg».proof.Proof.Gen.Kernel.Skeleton
import proofs.«109365_j63634235457560_2_alg».proof.Proof.Gen.Kernel.Launch
import proofs.«109365_j63634235457560_2_alg».proof.Proof.Gen.Kernel.Points
import proofs.«109365_j63634235457560_2_alg».proof.Proof.Gen.Kernel.Frame
import proofs.«109365_j63634235457560_2_alg».proof.Proof.Gen.KernelIdeal
import proofs.«109365_j63634235457560_2_alg».proof.Proof.Gen.KernelIdeal.Skeleton
import proofs.«109365_j63634235457560_2_alg».proof.Proof.Gen.KernelIdeal.Launch
import proofs.«109365_j63634235457560_2_alg».proof.Proof.Gen.KernelIdeal.Points
import proofs.«109365_j63634235457560_2_alg».proof.Proof.Gen.KernelIdeal.Frame
import proofs.«109365_j63634235457560_2_alg».proof.Proof.Gen.ReferenceIdeal
import proofs.«109365_j63634235457560_2_alg».proof.Proof.Gen.Pre_finite_inputs
import proofs.«109365_j63634235457560_2_alg».proof.Proof.Gen.ReferenceIdeal.Run
import proofs.«109365_j63634235457560_2_alg».proof.Proof.Spec
import proofs.«109365_j63634235457560_2_alg».proof.Proof.RefValue
import proofs.«109365_j63634235457560_2_alg».proof.Proof.KernelRun
import proofs.«109365_j63634235457560_2_alg».proof.Proof.KernelValue
import proofs.«109365_j63634235457560_2_alg».proof.Proof.Layer1
import proofs.«109365_j63634235457560_2_alg».proof.Proof.NormReal
import proofs.«109365_j63634235457560_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two layer-1 values agree under the precondition: the inputs are real by the precondition, the normalisations
    are real because degrees are positive integers, and aggregation commutes with the product for real data. -/
theorem layer1_agree (x : FVec Ideal Cert.ReferenceIdeal.S50000x128 .f32) (src dst : IVec Cert.ReferenceIdeal.S640000 32)
    (w1 : FVec Ideal Cert.ReferenceIdeal.S128x256 .f32)
    (hx : ∀ i, ∃ r : ℝ, x i = ((r : ℝ) : EReal)) (hw : ∀ i, ∃ r : ℝ, w1 i = ((r : ℝ) : EReal)) :
    Cert.ReferenceIdeal.RefValue.pre x src dst w1
      = Cert.Spec.product1 (Cert.Spec.aggregate128 x (Cert.Spec.edgeNorm src dst) (Cert.Spec.selfNorm dst) src dst) w1 :=
  (Cert.Spec.Layer1.aggregate_product_comm x w1 (Cert.Spec.edgeNorm src dst) (Cert.Spec.selfNorm dst) src dst hx hw
    (Cert.Spec.NormReal.edgeNorm_real src dst) (Cert.Spec.NormReal.selfNorm_real dst)).symm

/-- Both idealized programs, run from memories agreeing on the arguments, end with the same result array. -/
theorem algebraic : Cert.algebraic_KernelIdeal_ReferenceIdeal := by
  intro m ρ m' ρ' hpre hagree
  refine ⟨fun c => Cert.KernelIdeal.Gen.W10 m ρ c (Proc.devRef .tc Cert.KernelIdeal.main_v88),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v114 m' c = Cert.KernelIdeal.Gen.W10 m ρ c (Proc.devRef .tc Cert.KernelIdeal.main_v88)
  obtain ⟨h0, h1, h2, h3, h4, h5, h6, h7, h8, h9⟩ := hagree c
  obtain ⟨hx, hw⟩ := Cert.Proof.FiniteInputs.real_of_pre _ _ _ _ _ _ _ _ _ _ (hpre c)
  rw [Cert.ReferenceIdeal.RefValue.result_eq, Cert.KernelIdeal.FoldValue.result_eq, h0, h1, h2, h3, h4, h5, h6, h7, h8, h9,
    layer1_agree _ _ _ _ hx hw]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
